-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024 : Shape := ⟨1, ![1024]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  main_v23

def fn {F : FTy → Type} [FloatOps F] (main_arg0 : FVec F S1024x256 .f32) (main_arg1 : FVec F S1024x256 .f32) (main_arg2 : FVec F S1024 .f32) (main_arg3 : FVec F S1024x256 .f32) (main_arg4 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S1024x256 : Shape := ⟨2, ![1024, 256]⟩
abbrev S1024 : Shape := ⟨1, ![1024]⟩
abbrev S1x1024 : Shape := ⟨2, ![1, 1024]⟩
abbrev S1024x1024 : Shape := ⟨2, ![1024, 1024]⟩
abbrev S512x256 : Shape := ⟨2, ![512, 256]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024, .f32⟩
  | .hbm, ⟨3, _⟩ => ⟨S1024x256, .f32⟩
  | .hbm, ⟨4, _⟩ => ⟨S1024x256, .f32⟩
  | .hbm, ⟨5, _⟩ => ⟨S1x1024, .f32⟩
  | .hbm, ⟨6, _⟩ => ⟨S1024x1024, .f32⟩
  | .hbm, ⟨7, _⟩ => ⟨S1024x1024, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1x1024, .f32⟩
  | .local _ .vmem, ⟨4, _⟩ => ⟨S1024x256, .f32⟩
  | .local _ .vmem, ⟨5, _⟩ => ⟨S1024x256, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024_S1x1024 : S1024.ShapeCasts S1x1024
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x256_S1024 : S1024x256.Reduces [1] S1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S1024x256.size a
  hwx0_0 : ∀ i : grid0.Coords, EltTy.bits .f32 = 32 ∨ (Rect.block (s := S1024x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .f32 = 32 ∨ (Rect.block (s := S1024x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S1024x1024.size a
  hwx0_5 : ∀ i : grid0.Coords, EltTy.bits .f32 = 32 ∨ (Rect.block (s := S1024x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S1024x1024.size a
  hwx0_6 : ∀ i : grid0.Coords, EltTy.bits .f32 = 32 ∨ (Rect.block (s := S1024x1024) S512x1024.size (cc0_transform_6 i) (hinb0_6 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S1024x1x256 : Shape := ⟨3, ![1024, 1, 256]⟩
abbrev S1x1024x256 : Shape := ⟨3, ![1, 1024, 256]⟩
abbrev S1024x1024x256 : Shape := ⟨3, ![1024, 1024, 256]⟩

abbrev nBuf : Space → Nat
  | .hbm => 34
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024, .f32⟩
  | .hbm, ⟨3, _⟩ => ⟨S1024x256, .f32⟩
  | .hbm, ⟨4, _⟩ => ⟨S1024x256, .f32⟩
  | .hbm, ⟨5, _⟩ => ⟨S256x1024, .f32⟩
  | .hbm, ⟨6, _⟩ => ⟨S1024x1024, .f32⟩
  | .hbm, ⟨7, _⟩ => ⟨S1x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x1x256, .f32⟩
  | .hbm, ⟨18, _⟩ => ⟨S1x1024x256, .f32⟩
  | .hbm, ⟨19, _⟩ => ⟨S1024x1024x256, .f32⟩
  | .hbm, ⟨20, _⟩ => ⟨S1024x1024x256, .f32⟩
  | .hbm, ⟨21, _⟩ => ⟨S1024x1024x256, .f32⟩
  | .hbm, ⟨22, _⟩ => ⟨S1024x1024x256, .f32⟩
  | .hbm, ⟨23, _⟩ => ⟨S1x1024x256, .f32⟩
  | .hbm, ⟨24, _⟩ => ⟨S1024x1024x256, .f32⟩
  | .hbm, ⟨25, _⟩ => ⟨S1024x1024x256, .f32⟩
  | .hbm, ⟨26, _⟩ => ⟨S_, .f32⟩
  | .hbm, ⟨27, _⟩ => ⟨S1024x1024x256, .f32⟩
  | .hbm, ⟨28, _⟩ => ⟨S1024x1024x256, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  transposes_S1024x256_S256x1024_1_0 : S1024x256.Transposes [1, 0] S256x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x256 : S_.BroadcastsInDim S1024x256 (![] : Fin 0 → Fin S1024x256.rank)
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  bcast_S_S1024x1024x256 : S_.BroadcastsInDim S1024x1024x256 (![] : Fin 0 → Fin S1024x1024x256.rank)
  reducesTo_S1024x1024x256_S1024x1024_d2 : S1024x1024x256.ReducesTo [2] S1024x1024
  h_S_ : 0 < S_.numel
  dot_S1024x256_S256x1024_S1024x1024_1_0_0_1_n_n_wf : DotDims.WF S1024x256 S256x1024 S1024x1024 [1] [0] [0] [1] [] []

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

class Facts : Prop extends Facts₀ where

variable [Facts]
-- ==== Proof.GateAlgebra.lean ====
/-
  The scalar mathematics of the layer's gate, on the extended reals.

  For one batch row `x`, one neuron's centre `c` and inverse covariances `ic` (each a vector over the 256 input
  features), with `s k = min (ic k) 1e8`, the gate is `exp (-d)` where the reference computes

      d = ∑ k, (|x k - c k| · (s k · s k)^(1/2))^2

  and the kernel computes the same weighted squared distance from its expansion,

      ∑ k, x k² · s k²  -  2 · ∑ k, x k · (c k · s k²)  +  ∑ k, c k · (c k · s k²),

  clamped below at zero. On finite entries every operation is the real one, `(s·s)^(1/2) = |s|`, so each summand is
  `(x k - c k)² · s k²`, which expands to the three products; the sum is nonnegative, so the clamp is the identity.
  Distributivity is what needs the entries finite.
-/
import Idealize.ShloMosaic.PureOps.Ideal
import Idealize.ShloMosaic.PureOps.Ideal.Laws

noncomputable section

namespace Cert.Gate

open Idealize.ShloMosaic

/-! ## The constants the two programs spell -/

/-- The clamp's bound, `1e8`, is a real number. -/
theorem ofBits_cap : Ideal.ofBits .f32 0x4CBEBC20#32 = ((100000000 : ℝ) : EReal) := by
  simp [Ideal.ofBits, Ideal.ieee, -EReal.coe_mul]; norm_num

/-- The reference's inner exponent is exactly `1/2`. -/
theorem ofBits_half : Ideal.ofBits .f32 0x3F000000#32 = ((1 / 2 : ℝ) : EReal) := by
  simp [Ideal.ofBits, Ideal.ieee, -EReal.coe_mul]; norm_num

/-- The reference's outer exponent, and the kernel's factor on the cross term, is exactly `2`. -/
theorem ofBits_two : Ideal.ofBits .f32 0x40000000#32 = ((2 : ℝ) : EReal) := by
  simp [Ideal.ofBits, Ideal.ieee, -EReal.coe_mul]; norm_num

/-! ## Real numbers inside the extended reals -/

/-- The inclusion of the reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The inclusion is monotone, so it commutes with `min` and `max`. -/
theorem coe_min (a b : ℝ) : ((min a b : ℝ) : EReal) = min (a : EReal) (b : EReal) :=
  EReal.coe_strictMono.monotone.map_min

theorem coe_max (a b : ℝ) : ((max a b : ℝ) : EReal) = max (a : EReal) (b : EReal) :=
  EReal.coe_strictMono.monotone.map_max

/-- Every entry of a family is a real number. -/
def AllReal {ι : Type*} (a : ι → EReal) : Prop := ∀ i, ∃ r : ℝ, a i = (r : EReal)

/-! ## The two forms of the exponent -/

/-- An inverse covariance clamped from above at `1e8`. -/
def clamp (v : EReal) : EReal := min v (Ideal.ofBits .f32 0x4CBEBC20#32)

/-- The reference's exponent: the sum over the features of `(|x - c| · (s·s)^(1/2))^2`, onto the initial value `0`. -/
def dist (x c ic : Fin 256 → EReal) : EReal :=
  Ideal.ofBits .f32 0x00000000#32 + ∑ k : Fin 256,
    Ideal.pow (max (x k - c k) (-(x k - c k)) * Ideal.pow (clamp (ic k) * clamp (ic k)) (Ideal.ofBits .f32 0x3F000000#32))
      (Ideal.ofBits .f32 0x40000000#32)

/-- The gate: `exp (-d)`. -/
def gate (x c ic : Fin 256 → EReal) : EReal := Ideal.exp (-(dist x c ic))

/-- The kernel's expansion of the same distance into three sums of products. -/
def expanded (x c ic : Fin 256 → EReal) : EReal :=
  (∑ k : Fin 256, x k * x k * (clamp (ic k) * clamp (ic k)))
    - Ideal.ofBits .f32 0x40000000#32 * (∑ k : Fin 256, x k * (c k * (clamp (ic k) * clamp (ic k))))
    + ∑ k : Fin 256, c k * (c k * (clamp (ic k) * clamp (ic k)))

/-- The kernel's gate: the expansion clamped below at zero, subtracted from zero, exponentiated. -/
def expandedGate (x c ic : Fin 256 → EReal) : EReal :=
  Ideal.exp (Ideal.ofBits .f32 0x00000000#32 - max (expanded x c ic) (Ideal.ofBits .f32 0x00000000#32))

/-- One feature, over the reals: `(|x - c| · √(s·s))² = x²s² - 2·x·(c·s²) + c·(c·s²)`. -/
theorem real_term (x c s : ℝ) :
    Real.rpow (max (x - c) (-(x - c)) * Real.rpow (s * s) (1 / 2)) 2
      = x * x * (s * s) - 2 * (x * (c * (s * s))) + c * (c * (s * s)) := by
  rw [← abs_eq_max_neg, Real.rpow_eq_pow, Real.rpow_eq_pow, ← Real.sqrt_eq_rpow, Real.sqrt_mul_self_eq_abs,
    Real.rpow_two, mul_pow, sq_abs, sq_abs]
  ring

/-- Summed over the features: the three sums of products are the sum of the squared weighted differences. -/
theorem real_sum (X C S : Fin 256 → ℝ) :
    (∑ k : Fin 256, X k * X k * (S k * S k)) - 2 * (∑ k : Fin 256, X k * (C k * (S k * S k)))
      + ∑ k : Fin 256, C k * (C k * (S k * S k))
    = ∑ k : Fin 256, Real.rpow (max (X k - C k) (-(X k - C k)) * Real.rpow (S k * S k) (1 / 2)) 2 := by
  rw [Finset.mul_sum, ← Finset.sum_sub_distrib, ← Finset.sum_add_distrib]
  exact Finset.sum_congr rfl fun k _ => (real_term (X k) (C k) (S k)).symm

/-- A sum of squares is nonnegative: the kernel's clamp at zero does nothing. -/
theorem real_sum_nonneg (X C S : Fin 256 → ℝ) :
    0 ≤ ∑ k : Fin 256, Real.rpow (max (X k - C k) (-(X k - C k)) * Real.rpow (S k * S k) (1 / 2)) 2 :=
  Finset.sum_nonneg fun k _ => by
    rw [Real.rpow_eq_pow, Real.rpow_two]; exact sq_nonneg _

/-- On real entries the kernel's gate is the reference's. -/
theorem expandedGate_coe (X C IC : Fin 256 → ℝ) :
    expandedGate (fun k => (X k : EReal)) (fun k => (C k : EReal)) (fun k => (IC k : EReal))
      = gate (fun k => (X k : EReal)) (fun k => (C k : EReal)) (fun k => (IC k : EReal)) := by
  unfold expandedGate gate dist expanded clamp
  rw [Ideal.ofBits_zero_f32, ofBits_cap, ofBits_half, ofBits_two, ← EReal.coe_zero]
  simp only [← coe_min, ← EReal.coe_mul, ← EReal.coe_sub, ← EReal.coe_neg, ← coe_max, Ideal.pow_coe_coe, ← coe_sum,
    ← EReal.coe_add]
  rw [Ideal.exp_coe, Ideal.exp_coe, real_sum, max_eq_left (real_sum_nonneg _ _ _)]
  congr 2
  ring

/-- The same for families of extended reals whose entries are all real. -/
theorem expandedGate_eq_gate (x c ic : Fin 256 → EReal) (hx : AllReal x) (hc : AllReal c) (hic : AllReal ic) :
    expandedGate x c ic = gate x c ic := by
  choose X hX using hx
  choose C hC using hc
  choose IC hIC using hic
  obtain rfl : x = fun k => (X k : EReal) := funext hX
  obtain rfl : c = fun k => (C k : EReal) := funext hC
  obtain rfl : ic = fun k => (IC k : EReal) := funext hIC
  exact expandedGate_coe X C IC

end Cert.Gate

end
-- ==== Proof.LayerSpec.lean ====
/-
  The layer as ONE function of its five argument arrays, index by index.

  With `x : [1024, 256]` the batch of inputs, `w, c, ic : [1024, 256]` the weights, centres and inverse covariances of
  the 1024 neurons and `b : [1024]` the biases, at batch row `r` and neuron `z`:

      gateArr (r, z) = gate (x r ·) (c z ·) (ic z ·)                      -- exp of minus the weighted squared distance
      linArr  (r, z) = (∑ k, x (r, k) · w (z, k)) + b z                    -- the linear layer
      resArr  (r, z) = linArr (r, z) · gateArr (r, z)
-/
import proofs.«142972_j33406255628828_2_alg».proof.Proof.GateAlgebra
import Idealize.ShloMosaic.Lib.ValueIdx

noncomputable section

namespace Cert.Layer

open Idealize.ShloMosaic Idealize.ShloMosaic.ValueIdx Cert.Gate

/-- A `[1024, 256]` array of extended reals. -/
abbrev Mat : Type := (⟨2, ![1024, 256]⟩ : Shape).Idx → EReal
/-- A `[1024, 1024]` array of extended reals. -/
abbrev Out : Type := (⟨2, ![1024, 1024]⟩ : Shape).Idx → EReal
/-- A `[1024]` array of extended reals. -/
abbrev Vec1 : Type := (⟨1, ![1024]⟩ : Shape).Idx → EReal

/-- Row `r` of a `[1024, 256]` array, as a vector over the features. -/
def row (a : Mat) (r : Fin 1024) : Fin 256 → EReal := fun k => a (ix2 r k)

/-- The gate at batch row `r` and neuron `z`. -/
def gateAt (x c ic : Mat) (r z : Fin 1024) : EReal := gate (row x r) (row c z) (row ic z)

/-- The linear layer at batch row `r` and neuron `z`. -/
def linAt (x w : Mat) (b : Vec1) (r z : Fin 1024) : EReal := (∑ k : Fin 256, x (ix2 r k) * w (ix2 z k)) + b (ix1 z)

/-- The gate array. -/
def gateArr (x c ic : Mat) : Out := fun i => gateAt x c ic (i 0) (i 1)

/-- The result array: the linear layer times the gate. -/
def resArr (x w : Mat) (b : Vec1) (c ic : Mat) : Out := fun i => linAt x w b (i 0) (i 1) * gateAt x c ic (i 0) (i 1)

theorem gateArr_ix2 (x c ic : Mat) (r z : Fin 1024) : gateArr x c ic (ix2 r z) = gateAt x c ic r z := rfl

theorem resArr_ix2 (x w : Mat) (b : Vec1) (c ic : Mat) (r z : Fin 1024) :
    resArr x w b c ic (ix2 r z) = linAt x w b r z * gateAt x c ic r z := rfl

end Cert.Layer

end
-- ==== Proof.KernelBlock.lean ====
/-
  What the kernel's body computes for one grid point, read at an index of its [512, 1024] output block.

  The body holds a [512, 256] block `x` of the inputs and the whole [1024, 256] arrays `w`, `c`, `ic` and the [1, 1024]
  biases. At row `p` of the block and neuron `q`:
    * each of its three matrix products contracts the 256 features of row `p` of the left factor against row `q` of the
      right one (both factors are contracted along their second axis);
    * the per-neuron constant `∑ k, c (q,k) · (c (q,k) · s (q,k)²)` is a row sum, re-laid as a [1, 1024] row and repeated
      down the 512 rows;
    * so the gate it stores is `expandedGate` of row `p` of `x` and rows `q` of `c`, `ic`, and the result it stores is
      `(∑ k, x (p,k) · w (q,k) + bias (0,q))` times that gate.
-/
import proofs.«142972_j33406255628828_2_alg».proof.Proof.Gen.KernelIdeal.Skeleton
import proofs.«142972_j33406255628828_2_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Gate

/-- The dimension numbers shared by the body's three matrix products: both factors contracted along axis 1. -/
abbrev D : DotDims S512x256 S1024x256 S512x1024 := dot_S512x256_S1024x256_S512x1024_1_1_0_0_n_n

theorem lhs0 (i : S512x1024.Idx) (k : D.contr.Idx) : (D.lhsIdx i k 0).val = (i 0).val := by
  unfold DotDims.lhsIdx
  rw [dif_neg (show ¬(0 : Fin S512x256.rank) ∈ D.lhsBatch by decide), dif_pos (show (0 : Fin S512x256.rank) ∈ D.lhsNonContracting by decide)]
  rfl

theorem lhs1 (i : S512x1024.Idx) (k : D.contr.Idx) : (D.lhsIdx i k 1).val = (k ⟨0, by decide⟩).val :=
  D.lhsIdx_val_of_single rfl i k

theorem rhs0 (i : S512x1024.Idx) (k : D.contr.Idx) : (D.rhsIdx i k 0).val = (i 1).val := by
  unfold DotDims.rhsIdx
  rw [dif_neg (show ¬(0 : Fin S1024x256.rank) ∈ D.rhsBatch by decide), dif_pos (show (0 : Fin S1024x256.rank) ∈ D.rhsNonContracting by decide)]
  rfl

theorem rhs1 (i : S512x1024.Idx) (k : D.contr.Idx) : (D.rhsIdx i k 1).val = (k ⟨0, by decide⟩).val :=
  D.rhsIdx_val_of_single rfl i k

/-- A matrix product of the body into the zero accumulator, at row `p` and neuron `q`: the sum over the 256 features of
    the left factor's row `p` times the right factor's row `q`. -/
theorem matmul_at (prec : Option ContractPrecision) (a : FVec Ideal S512x256 .f32) (b : FVec Ideal S1024x256 .f32)
    (p : Fin 512) (q : Fin 1024) :
    matmul D prec a b (constant S512x1024 .f32 0x00000000#32) (ix2 p q) = ∑ k : Fin 256, a (ix2 p k) * b (ix2 q k) := by
  refine (Ideal.matmul_constant_zero_apply D prec a b (ix2 p q)).trans ?_
  rw [← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun ax => Fin.ext (by
    match ax with
    | ⟨0, _⟩ => exact lhs0 _ _
    | ⟨1, _⟩ => exact (lhs1 _ _).trans hk)
  have er : D.rhsIdx (ix2 p q) ((contrEquiv1 D 256 rfl rfl).symm k) = ix2 q k := funext fun ax => Fin.ext (by
    match ax with
    | ⟨0, _⟩ => exact rhs0 _ _
    | ⟨1, _⟩ => exact (rhs1 _ _).trans hk)
  rw [el, er]

/-- The sum along the features of a [1024, 256] array, at neuron `q`. -/
theorem rowsum_at (v : FVec Ideal S1024x256 .f32) (hacc : (0x00000000#32 : BitVec 32) = 0x00000000#32) (q : Fin 1024) :
    multiReduction .add [1] S1024 v 0x00000000#32 reduces_S1024x256_S1024 (.inl rfl) hacc (ix1 q)
      = ∑ k : Fin 256, v (ix2 q k) := by
  refine (Ideal.multiReduction_add_single v 0x00000000#32 reduces_S1024x256_S1024 (.inl rfl) hacc (ix1 q)).trans ?_
  refine Finset.sum_congr rfl fun k _ => congrArg v (funext fun ax => Fin.ext ?_)
  match ax with
  | ⟨0, _⟩ => rfl
  | ⟨1, _⟩ => rfl

/-- A per-neuron vector re-laid as a [1, 1024] row and repeated down the 512 rows reads, at `(p, q)`, the vector at `q`. -/
theorem repeat_vec_at (v : FVec Ideal S1024 .f32) (p : Fin 512) (q : Fin 1024) :
    broadcastTo S512x1024 (shapeCast S1x1024 v shapeCasts_S1024_S1x1024) broadcasts_S1x1024_S512x1024 (ix2 p q) = v (ix1 q) :=
  (broadcastTo_1b_ab_apply _ broadcasts_S1x1024_S512x1024 p q).trans
    (shapeCast_a_1a_apply v shapeCasts_S1024_S1x1024 (0 : Fin 1) q)

/-- The [1, 1024] bias row repeated down the 512 rows reads, at `(p, q)`, the row at `q`. -/
theorem repeat_row_at (v : FVec Ideal S1x1024 .f32) (p : Fin 512) (q : Fin 1024) :
    broadcastTo S512x1024 (shapeCast S1x1024 v shapeCasts_S1x1024_S1x1024) broadcasts_S1x1024_S512x1024 (ix2 p q)
      = v (ix2 (0 : Fin 1) q) := by
  rw [shapeCast_self]
  exact broadcastTo_1b_ab_apply v broadcasts_S1x1024_S512x1024 p q

/-- The gate the body stores, at row `p` of the block and neuron `q`. -/
theorem gate_at (x : Vec Ideal S512x256 .f32) (c ic : Vec Ideal S1024x256 .f32) (p : Fin 512) (q : Fin 1024) :
    k0_pay1 (F := Ideal) x c ic (ix2 p q)
      = expandedGate (fun k => x (ix2 p k)) (fun k => c (ix2 q k)) (fun k => ic (ix2 q k)) := by
  unfold k0_pay1
  simp only [exp, subf, maximumf, addf, mulf, broadcast]
  rw [matmul_at, matmul_at, repeat_vec_at, rowsum_at]
  rfl

/-- The result the body stores, at row `p` of the block and neuron `q`: the linear layer times the gate. -/
theorem res_at (x : Vec Ideal S512x256 .f32) (w : Vec Ideal S1024x256 .f32) (bias : Vec Ideal S1x1024 .f32)
    (c ic : Vec Ideal S1024x256 .f32) (p : Fin 512) (q : Fin 1024) :
    k0_pay2 (F := Ideal) x w bias c ic (ix2 p q)
      = ((∑ k : Fin 256, x (ix2 p k) * w (ix2 q k)) + bias (ix2 (0 : Fin 1) q))
          * expandedGate (fun k => x (ix2 p k)) (fun k => c (ix2 q k)) (fun k => ic (ix2 q k)) := by
  unfold k0_pay2
  simp only [mulf, addf]
  rw [matmul_at, repeat_row_at, gate_at]
  rfl

/-! ## One grid point against the whole arrays

The body's blocks are read off the argument arrays `X, W, C, IC : [1024, 256]` and `B : [1024]`: row `p` of the input
block is row `r` of `X`, the other blocks are the arrays themselves, and the bias row is `B`. When the arrays hold real
numbers only, what the body stores at `(p, q)` is the layer's value at `(r, q)`. -/

open Cert.Layer in
/-- The stored gate is the layer's gate. -/
theorem gate_point (x : Vec Ideal S512x256 .f32) (c ic : Vec Ideal S1024x256 .f32) (X C IC : Mat)
    (p : Fin 512) (r q : Fin 1024)
    (hx : ∀ k : Fin 256, x (ix2 p k) = X (ix2 r k)) (hc : ∀ k : Fin 256, c (ix2 q k) = C (ix2 q k))
    (hic : ∀ k : Fin 256, ic (ix2 q k) = IC (ix2 q k)) (fX : AllReal X) (fC : AllReal C) (fIC : AllReal IC) :
    k0_pay1 (F := Ideal) x c ic (ix2 p q) = gateAt X C IC r q := by
  rw [gate_at, show (fun k => x (ix2 p k)) = row X r from funext hx,
    show (fun k => c (ix2 q k)) = row C q from funext hc, show (fun k => ic (ix2 q k)) = row IC q from funext hic]
  exact expandedGate_eq_gate _ _ _ (fun k => fX _) (fun k => fC _) (fun k => fIC _)

open Cert.Layer in
/-- The stored result is the layer's result. -/
theorem res_point (x : Vec Ideal S512x256 .f32) (w : Vec Ideal S1024x256 .f32) (bias : Vec Ideal S1x1024 .f32)
    (c ic : Vec Ideal S1024x256 .f32) (X W : Mat) (B : Vec1) (C IC : Mat) (p : Fin 512) (r q : Fin 1024)
    (hx : ∀ k : Fin 256, x (ix2 p k) = X (ix2 r k)) (hw : ∀ k : Fin 256, w (ix2 q k) = W (ix2 q k))
    (hb : bias (ix2 (0 : Fin 1) q) = B (ix1 q)) (hc : ∀ k : Fin 256, c (ix2 q k) = C (ix2 q k))
    (hic : ∀ k : Fin 256, ic (ix2 q k) = IC (ix2 q k)) (fX : AllReal X) (fC : AllReal C) (fIC : AllReal IC) :
    k0_pay2 (F := Ideal) x w bias c ic (ix2 p q) = linAt X W B r q * gateAt X C IC r q := by
  rw [res_at, show (fun k => x (ix2 p k)) = row X r from funext hx,
    show (fun k => c (ix2 q k)) = row C q from funext hc, show (fun k => ic (ix2 q k)) = row IC q from funext hic,
    expandedGate_eq_gate (row X r) (row C q) (row IC q) (fun k => fX _) (fun k => fC _) (fun k => fIC _), hb]
  unfold linAt gateAt
  congr 2
  exact Finset.sum_congr rfl fun k _ => by rw [hx k, hw k]

end Cert.KernelIdeal.Block

end
-- ==== Proof.KernelArray.lean ====
/-
  From the body's blocks to the two whole output arrays.

  The grid has two points; point `t` stages rows `512·t … 512·t + 511` of the inputs, the whole of the weights, centres
  and inverse covariances, and the biases as one [1, 1024] row (the host reshapes the [1024] vector first), and writes
  back rows `512·t … 512·t + 511` of both [1024, 1024] results. So, when the arguments hold real numbers only, what
  point `t` writes back is block `t` of the layer's functions `resArr` and `gateArr` of the argument arrays; the two
  blocks cover the results; hence the results ARE those functions.
-/
import proofs.«142972_j33406255628828_2_alg».proof.Proof.Gen.KernelIdeal.Value
import proofs.«142972_j33406255628828_2_alg».proof.Proof.KernelBlock
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Gate Cert.Layer

variable (m : (ℓ : Loc nD τ sig) → Buf (Elt Ideal) ℓ) (ρ : Dev nD → PrngReg)

theorem hz : (![0, 0] : Fin 2 → Nat) = fun _ => 0 := funext fun a => by fin_cases a <;> rfl

/-- The printed index maps over the two grid points: the input block and both output blocks move down the rows with the
    point; every other block stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as rows of the argument arrays -/

/-- Row `p` of the input block at point `t` is row `512·t + p` of the inputs. -/
theorem inputs_block (c : Dev nD) (t : Fin cfg0.N) (p : Fin 512) (k : Fin 256) (r : Fin 1024) (hr : r.val = t.val * 512 + p.val) :
    (iblk m c 0 t : Vec Ideal S512x256 .f32) (ix2 p k)
      = (m ((c : Thread nD τ).loc main_arg0) : S1024x256.Idx → EReal) (ix2 r k) := by
  obtain ⟨e0, e1, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 256 + 1 * k.val = k.val; rw [e1]; omega

/-- The weights are staged whole at every point. -/
theorem weights_block (c : Dev nD) (t : Fin cfg0.N) (q : Fin 1024) (k : Fin 256) :
    (iblk m c 1 t : Vec Ideal S1024x256 .f32) (ix2 q k)
      = (m ((c : Thread nD τ).loc main_arg1) : S1024x256.Idx → EReal) (ix2 q k) := by
  obtain ⟨-, -, e0, e1, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 1024 + 1 * q.val = q.val; rw [e0]; omega
  | ⟨1, _⟩ => show win0_1.index t (1 : Fin 2) * 256 + 1 * k.val = k.val; rw [e1]; omega

/-- The centres are staged whole at every point. -/
theorem centres_block (c : Dev nD) (t : Fin cfg0.N) (q : Fin 1024) (k : Fin 256) :
    (iblk m c 3 t : Vec Ideal S1024x256 .f32) (ix2 q k)
      = (m ((c : Thread nD τ).loc main_arg3) : S1024x256.Idx → EReal) (ix2 q k) := by
  obtain ⟨-, -, -, -, -, -, e0, e1, -⟩ := idx_facts t
  unfold iblk
  rw [View.read_apply]
  show V m c main_arg3 _ = m (c.tc.loc main_arg3) _
  rw [V_main_arg3]
  refine congrArg _ (funext fun a => Fin.ext ?_)
  match a with
  | ⟨0, _⟩ => show win0_3.index t (0 : Fin 2) * 1024 + 1 * q.val = q.val; rw [e0]; omega
  | ⟨1, _⟩ => show win0_3.index t (1 : Fin 2) * 256 + 1 * k.val = k.val; rw [e1]; omega

/-- The inverse covariances are staged whole at every point. -/
theorem scales_block (c : Dev nD) (t : Fin cfg0.N) (q : Fin 1024) (k : Fin 256) :
    (iblk m c 4 t : Vec Ideal S1024x256 .f32) (ix2 q k)
      = (m ((c : Thread nD τ).loc main_arg4) : S1024x256.Idx → EReal) (ix2 q k) := by
  obtain ⟨-, -, -, -, -, -, -, -, e0, e1, -⟩ := idx_facts t
  unfold iblk
  rw [View.read_apply]
  show V m c main_arg4 _ = m (c.tc.loc main_arg4) _
  rw [V_main_arg4]
  refine congrArg _ (funext fun a => Fin.ext ?_)
  match a with
  | ⟨0, _⟩ => show win0_4.index t (0 : Fin 2) * 1024 + 1 * q.val = q.val; rw [e0]; omega
  | ⟨1, _⟩ => show win0_4.index t (1 : Fin 2) * 256 + 1 * k.val = k.val; rw [e1]; omega

/-- The host re-lays the [1024] biases as one [1, 1024] row before the region. -/
theorem bias_row (c : Dev nD) :
    (V m c main_v0 : S1x1024.Idx → EReal)
      = shapeCast S1x1024 (m ((c : Thread nD τ).loc main_arg2) : S1024.Idx → EReal) shapeCasts_S1024_S1x1024 := by
  dsimp only [V, hostOps0]
  after_results
  rfl

/-- The bias row is staged whole at every point: its entry `q` is bias `q`. -/
theorem bias_block (c : Dev nD) (t : Fin cfg0.N) (q : Fin 1024) :
    (iblk m c 2 t : Vec Ideal S1x1024 .f32) (ix2 (0 : Fin 1) q)
      = (m ((c : Thread nD τ).loc main_arg2) : S1024.Idx → EReal) (ix1 q) := by
  obtain ⟨-, -, -, -, e0, e1, -⟩ := idx_facts t
  unfold iblk
  rw [View.read_apply]
  show V m c main_v0 _ = _
  rw [bias_row]
  refine Eq.trans (congrArg _ (funext fun a => Fin.ext ?_)) (shapeCast_a_1a_apply _ shapeCasts_S1024_S1x1024 (0 : Fin 1) q)
  match a with
  | ⟨0, _⟩ => show win0_2.index t (0 : Fin 2) * 1 + 1 * 0 = 0; rw [e0]
  | ⟨1, _⟩ => show win0_2.index t (1 : Fin 2) * 1024 + 1 * q.val = q.val; rw [e1]; omega

/-! ## What each point writes back -/

/-- The five argument arrays on core `c`, as the layer's functions take them. -/
abbrev argX (c : Dev nD) : Mat := m ((c : Thread nD τ).loc main_arg0)
abbrev argW (c : Dev nD) : Mat := m ((c : Thread nD τ).loc main_arg1)
abbrev argB (c : Dev nD) : Vec1 := m ((c : Thread nD τ).loc main_arg2)
abbrev argC (c : Dev nD) : Mat := m ((c : Thread nD τ).loc main_arg3)
abbrev argIC (c : Dev nD) : Mat := m ((c : Thread nD τ).loc main_arg4)

/-- Entry `(p, q)` of an output block at point `t` sits at row `512·t + p`, column `q` of the array. -/
theorem row_lt (t : Fin cfg0.N) (p : Fin 512) : t.val * 512 + p.val < 1024 := by
  have := t.isLt; have hN : cfg0.N = 2 := N_0; have := p.isLt; omega

/-- Point `t` writes back block `t` of the layer's result. -/
theorem flushed_res (c : Dev nD) (t : Fin cfg0.N) (fX : AllReal (argX m c)) (fC : AllReal (argC m c)) (fIC : AllReal (argIC m c)) :
    (dats m 0 c).flushed 5 t
      = ((cfg0.win 5).blk t).view.read (Elt Ideal) (resArr (argX m c) (argW m c) (argB m c) (argC m c) (argIC m c)) := by
  obtain ⟨-, -, -, -, -, -, -, -, -, -, e0, e1, -⟩ := idx_facts t
  rw [flushed5]
  unfold out0_5
  rw [View.canon_unit_zero hz]
  simp only [View.ld_unit_zero (S := S512x256) hz, View.ld_unit_zero (S := S1024x256) hz, View.ld_unit_zero (S := S1x1024) hz]
  refine funext fun (j : S512x1024.Idx) => ?_
  obtain ⟨p, q, rfl⟩ : ∃ (p : Fin 512) (q : Fin 1024), j = ix2 p q := ⟨j 0, j 1, eq_ix2 j⟩
  show k0_pay2 (F := Ideal) (iblk m c 0 t) (iblk m c 1 t) (iblk m c 2 t) (iblk m c 3 t) (iblk m c 4 t) (ix2 p q)
    = resArr (argX m c) (argW m c) (argB m c) (argC m c) (argIC m c) (((cfg0.win 5).blk t).view.emb (ix2 p q))
  have hemb : ((cfg0.win 5).blk t).view.emb (ix2 p q) = ix2 (⟨t.val * 512 + p.val, row_lt t p⟩ : Fin 1024) q :=
    funext fun a => Fin.ext (by
      match a with
      | ⟨0, _⟩ => show win0_5.index t (0 : Fin 2) * 512 + 1 * p.val = t.val * 512 + p.val; rw [e0]; omega
      | ⟨1, _⟩ => show win0_5.index t (1 : Fin 2) * 1024 + 1 * q.val = q.val; rw [e1]; omega)
  rw [hemb, resArr_ix2]
  exact Block.res_point (iblk m c 0 t) (iblk m c 1 t) (iblk m c 2 t) (iblk m c 3 t) (iblk m c 4 t)
    (argX m c) (argW m c) (argB m c) (argC m c) (argIC m c) p ⟨t.val * 512 + p.val, row_lt t p⟩ q
    (fun k => inputs_block m c t p k _ rfl) (fun k => weights_block m c t q k) (bias_block m c t q)
    (fun k => centres_block m c t q k) (fun k => scales_block m c t q k) fX fC fIC

/-- Point `t` writes back block `t` of the layer's gate. -/
theorem flushed_gate (c : Dev nD) (t : Fin cfg0.N) (fX : AllReal (argX m c)) (fC : AllReal (argC m c)) (fIC : AllReal (argIC m c)) :
    (dats m 0 c).flushed 6 t
      = ((cfg0.win 6).blk t).view.read (Elt Ideal) (gateArr (argX m c) (argC m c) (argIC m c)) := by
  obtain ⟨-, -, -, -, -, -, -, -, -, -, -, -, e0, e1⟩ := idx_facts t
  rw [flushed6]
  unfold out0_6
  rw [View.canon_unit_zero hz]
  simp only [View.ld_unit_zero (S := S512x256) hz, View.ld_unit_zero (S := S1024x256) hz]
  refine funext fun (j : S512x1024.Idx) => ?_
  obtain ⟨p, q, rfl⟩ : ∃ (p : Fin 512) (q : Fin 1024), j = ix2 p q := ⟨j 0, j 1, eq_ix2 j⟩
  show k0_pay1 (F := Ideal) (iblk m c 0 t) (iblk m c 3 t) (iblk m c 4 t) (ix2 p q)
    = gateArr (argX m c) (argC m c) (argIC m c) (((cfg0.win 6).blk t).view.emb (ix2 p q))
  have hemb : ((cfg0.win 6).blk t).view.emb (ix2 p q) = ix2 (⟨t.val * 512 + p.val, row_lt t p⟩ : Fin 1024) q :=
    funext fun a => Fin.ext (by
      match a with
      | ⟨0, _⟩ => show win0_6.index t (0 : Fin 2) * 512 + 1 * p.val = t.val * 512 + p.val; rw [e0]; omega
      | ⟨1, _⟩ => show win0_6.index t (1 : Fin 2) * 1024 + 1 * q.val = q.val; rw [e1]; omega)
  rw [hemb, gateArr_ix2]
  exact Block.gate_point (iblk m c 0 t) (iblk m c 3 t) (iblk m c 4 t) (argX m c) (argC m c) (argIC m c)
    p ⟨t.val * 512 + p.val, row_lt t p⟩ q
    (fun k => inputs_block m c t p k _ rfl) (fun k => centres_block m c t q k) (fun k => scales_block m c t q k) fX fC fIC

/-! ## The two blocks cover each result -/

theorem mem_blk5 (t : Fin cfg0.N) (i : S1024x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v1_0).slice (win0_5.rect t)).set ↔ _
  rw [View.set_slice_whole, Rect.mem_set_unit]
  exact Iff.rfl

theorem mem_blk6 (t : Fin cfg0.N) (i : S1024x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v1_1).slice (win0_6.rect t)).set ↔ _
  rw [View.set_slice_whole, Rect.mem_set_unit]
  exact Iff.rfl

/-- Row `r` of a result lies in the block of point `r / 512`. -/
theorem point_of_row (i : S1024x1024.Idx) : (i 0).val / 512 < cfg0.N := by
  have hi0 : (i 0).val < 1024 := (i 0).isLt
  have hN : cfg0.N = 2 := N_0
  omega

theorem cover5 (i : S1024x1024.Idx) :
    ∃ t : Fin cfg0.N, (cfg0.win 5).flush t = true ∧ i ∈ ((cfg0.win 5).blk t).view.set := by
  have hi0 : (i 0).val < 1024 := (i 0).isLt
  have hi1 : (i 1).val < 1024 := (i 1).isLt
  obtain ⟨-, -, -, -, -, -, -, -, -, -, e0, e1, -⟩ := idx_facts ⟨(i 0).val / 512, point_of_row i⟩
  refine ⟨⟨(i 0).val / 512, point_of_row i⟩, flush0_5 _, ?_⟩
  rw [mem_blk5]
  intro a
  match a with
  | ⟨0, _⟩ =>
    show win0_5.index ⟨(i 0).val / 512, point_of_row i⟩ (0 : Fin 2) * 512 ≤ (i 0).val
      ∧ (i 0).val < win0_5.index ⟨(i 0).val / 512, point_of_row i⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, point_of_row i⟩ (1 : Fin 2) * 1024 ≤ (i 1).val
      ∧ (i 1).val < win0_5.index ⟨(i 0).val / 512, point_of_row i⟩ (1 : Fin 2) * 1024 + 1024
    rw [e1]; omega

theorem cover6 (i : S1024x1024.Idx) :
    ∃ t : Fin cfg0.N, (cfg0.win 6).flush t = true ∧ i ∈ ((cfg0.win 6).blk t).view.set := by
  have hi0 : (i 0).val < 1024 := (i 0).isLt
  have hi1 : (i 1).val < 1024 := (i 1).isLt
  obtain ⟨-, -, -, -, -, -, -, -, -, -, -, -, e0, e1⟩ := idx_facts ⟨(i 0).val / 512, point_of_row i⟩
  refine ⟨⟨(i 0).val / 512, point_of_row i⟩, flush0_6 _, ?_⟩
  rw [mem_blk6]
  intro a
  match a with
  | ⟨0, _⟩ =>
    show win0_6.index ⟨(i 0).val / 512, point_of_row i⟩ (0 : Fin 2) * 512 ≤ (i 0).val
      ∧ (i 0).val < win0_6.index ⟨(i 0).val / 512, point_of_row i⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, point_of_row i⟩ (1 : Fin 2) * 1024 ≤ (i 1).val
      ∧ (i 1).val < win0_6.index ⟨(i 0).val / 512, point_of_row i⟩ (1 : Fin 2) * 1024 + 1024
    rw [e1]; omega

/-! ## The whole arrays, and the run -/

/-- The first result array ends holding the layer's result. -/
theorem final_res (c : Dev nD) (fX : AllReal (argX m c)) (fC : AllReal (argC m c)) (fIC : AllReal (argIC m c)) :
    (dats m 0 c).arrAt 5 cfg0.N = resArr (argX m c) (argW m c) (argB m c) (argC m c) (argIC m c) :=
  (dats m 0 c).arrAt_eq_of_cover 5 (resArr (argX m c) (argW m c) (argB m c) (argC m c) (argIC m c))
    (fun t _ => flushed_res m c t fX fC fIC) cover5

/-- The second result array ends holding the layer's gate. -/
theorem final_gate (c : Dev nD) (fX : AllReal (argX m c)) (fC : AllReal (argC m c)) (fIC : AllReal (argIC m c)) :
    (dats m 0 c).arrAt 6 cfg0.N = gateArr (argX m c) (argC m c) (argIC m c) :=
  (dats m 0 c).arrAt_eq_of_cover 6 (gateArr (argX m c) (argC m c) (argIC m c))
    (fun t _ => flushed_gate m c t fX fC fIC) cover6

/-- The kernel's run, read: when the inputs, centres and inverse covariances hold real numbers only, every weakly fair
    execution terminates with the two results at the layer's functions of the arguments, the arguments unchanged. -/
theorem run (hfin : ∀ c : Dev nD, AllReal (argX m c) ∧ AllReal (argC m c) ∧ AllReal (argIC m c)) :
    θ_run defs (onTc (τ := τ) (main (F := Ideal))) ⟨m, fun _ => 0, ρ⟩ fun r => ∀ c : Dev nD,
      r.2.mem ((c : Thread nD τ).loc main_v1_0) = resArr (argX m c) (argW m c) (argB m c) (argC m c) (argIC m c)
      ∧ r.2.mem ((c : Thread nD τ).loc main_v1_1) = gateArr (argX m c) (argC m c) (argIC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).1.trans (final_res m c (hfin c).1 (hfin c).2.1 (hfin c).2.2),
        (h c).2.1.trans (final_gate m c (hfin c).1 (hfin c).2.1 (hfin c).2.2), (h c).2.2⟩)
    (run_blocks m ρ)

end Cert.KernelIdeal.Whole

end
-- ==== Proof.ReferenceArray.lean ====
/-
  The reference's two results are the layer's functions `resArr` and `gateArr` of its five arguments.

  The reference broadcasts the inputs to [1024, 1, 256] and the centres and scales to [1, 1024, 256], combines them in
  [1024, 1024, 256] and sums the last axis: read at batch row `r`, neuron `z` and feature `k`, each broadcast chain
  reads its argument at `(r, k)` or `(z, k)`, so the summand is the scalar expression of `Gate.dist` on row `r` of the
  inputs and rows `z` of the centres and inverse covariances. Its matrix product against the transposed weights
  contracts row `r` of the inputs with row `z` of the weights, and the bias is broadcast along the batch.
-/
import proofs.«142972_j33406255628828_2_alg».proof.Proof.Gen.ReferenceIdeal.Read
import proofs.«142972_j33406255628828_2_alg».proof.Proof.LayerSpec
import Idealize.ShloMosaic.Lib.ValueIdx

noncomputable section

namespace Cert.ReferenceIdeal.Spec

open Cert.ReferenceIdeal Cert.ReferenceIdeal.Gen Cert.ReferenceIdeal.Read Idealize.ShloMosaic Idealize.ShloMosaic.ValueIdx
open Cert.Gate Cert.Layer

/-! ## Where each broadcast chain reads its argument -/

theorem at_input (r z : Fin 1024) (k : Fin 256) :
    idx_main_v10 (idx_main_v12 (idx_main_v21 (ix2 r z) k)) = ix2 r k :=
  funext fun a => Fin.ext (by match a with | ⟨0, _⟩ => rfl | ⟨1, _⟩ => rfl)

theorem at_centre (r z : Fin 1024) (k : Fin 256) :
    idx_main_v11 (idx_main_v13 (idx_main_v21 (ix2 r z) k)) = ix2 z k :=
  funext fun a => Fin.ext (by match a with | ⟨0, _⟩ => rfl | ⟨1, _⟩ => rfl)

theorem at_scale (r z : Fin 1024) (k : Fin 256) :
    idx_main_v16 (idx_main_v17 (idx_main_v21 (ix2 r z) k)) = ix2 z k :=
  funext fun a => Fin.ext (by match a with | ⟨0, _⟩ => rfl | ⟨1, _⟩ => rfl)

theorem at_lhs (r z : Fin 1024) (k : Fin 256) : lidx_main_v1 (ix2 r z) k = ix2 r k :=
  funext fun a => Fin.ext (by match a with | ⟨0, _⟩ => rfl | ⟨1, _⟩ => rfl)

theorem at_weight (r z : Fin 1024) (k : Fin 256) : idx_main_v0 (ridx_main_v1 (ix2 r z) k) = ix2 z k :=
  funext fun a => Fin.ext (by match a with | ⟨0, _⟩ => rfl | ⟨1, _⟩ => rfl)

theorem at_bias (r z : Fin 1024) : idx_main_v2 (idx_main_v3 (ix2 r z)) = ix1 z :=
  funext fun a => Fin.ext (by match a with | ⟨0, _⟩ => rfl)

/-! ## The two results -/

/-- The reference's gate at batch row `r` and neuron `z`. -/
theorem gate_at (x0 x3 x4 : (⟨S1024x256, .f32⟩ : BufTy).Contents (Elt Ideal)) (r z : Fin 1024) :
    val_main_v23 (F := Ideal) x0 x3 x4 (ix2 r z) = gateAt x0 x3 x4 r z := by
  simp only [val_main_v23_apply, val_main_v22_apply, val_main_v21_apply, val_main_v20_apply, val_main_v19_apply,
    val_main_cst_1_apply, val_main_v18_apply, val_main_v17_apply, val_main_v16_apply, val_main_v15_apply,
    val_main_v14_apply, val_main_v13_apply, val_main_v12_apply, val_main_v11_apply, val_main_v10_apply,
    val_main_v9_apply, val_main_v8_apply, val_main_cst_0_apply, val_main_v7_apply, val_main_v6_apply,
    val_main_v5_apply, val_main_cst_apply, val_main_cst_2_apply, at_input, at_centre, at_scale]
  rfl

/-- The reference's linear layer at batch row `r` and neuron `z`. -/
theorem lin_at (x0 x1 : (⟨S1024x256, .f32⟩ : BufTy).Contents (Elt Ideal)) (x2 : (⟨S1024, .f32⟩ : BufTy).Contents (Elt Ideal))
    (r z : Fin 1024) : val_main_v4 (F := Ideal) x0 x1 x2 (ix2 r z) = linAt x0 x1 x2 r z := by
  simp only [val_main_v4_apply, val_main_v1_apply, val_main_v0_apply, val_main_v3_apply, val_main_v2_apply, at_lhs,
    at_weight, at_bias]
  rfl

/-- The gate result is `gateArr` of the inputs, centres and inverse covariances. -/
theorem gate_eq (x0 x3 x4 : (⟨S1024x256, .f32⟩ : BufTy).Contents (Elt Ideal)) :
    val_main_v23 (F := Ideal) x0 x3 x4 = gateArr x0 x3 x4 := by
  funext i
  obtain ⟨r, z, rfl⟩ : ∃ (r z : Fin 1024), i = ix2 r z := ⟨i 0, i 1, eq_ix2 i⟩
  exact gate_at x0 x3 x4 r z

/-- The first result is `resArr` of the five arguments. -/
theorem res_eq (x0 x1 : (⟨S1024x256, .f32⟩ : BufTy).Contents (Elt Ideal)) (x2 : (⟨S1024, .f32⟩ : BufTy).Contents (Elt Ideal))
    (x3 x4 : (⟨S1024x256, .f32⟩ : BufTy).Contents (Elt Ideal)) :
    val_main_v24 (F := Ideal) x0 x1 x2 x3 x4 = resArr x0 x1 x2 x3 x4 := by
  funext i
  obtain ⟨r, z, rfl⟩ : ∃ (r z : Fin 1024), i = ix2 r z := ⟨i 0, i 1, eq_ix2 i⟩
  rw [val_main_v24_apply, lin_at, gate_at]
  rfl

end Cert.ReferenceIdeal.Spec

end
-- ==== Proof.FiniteInputs.lean ====
/-
  The precondition, read back: every entry of every argument array is a real number.

  The precondition is the conjunction, over the five arguments, of "every entry `v` has `|v| < +∞`". On the extended
  reals `|v| = max v (-v)`, which is `+∞` at both infinities, so the strict bound leaves exactly the real numbers.
-/
import proofs.«142972_j33406255628828_2_alg».proof.Proof.Gen.Pre_finite_inputs
import proofs.«142972_j33406255628828_2_alg».proof.Proof.GateAlgebra
import Idealize.ShloMosaic.Lib.ReduceAll
import Idealize.ShloMosaic.Lib.ValueIdx
import Idealize.ShloMosaic.PureOps.Ideal.Laws

noncomputable section

namespace Cert.Pre_finite_inputs.Real

open Cert.Pre_finite_inputs Cert.Pre_finite_inputs.Gen Idealize.ShloMosaic Idealize.ShloMosaic.ValueIdx Cert.Gate

/-- The bound's pattern denotes `+∞`. -/
theorem ofBits_inf : Ideal.ofBits .f32 0x7F800000#32 = ⊤ := by
  simp [Ideal.ofBits, Ideal.ieee]

/-- An extended real whose absolute value is strictly below `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  induction x using EReal.rec with
  | bot => simp [Ideal.cmp] at h
  | top => simp [Ideal.cmp] at h
  | coe r => exact ⟨r, rfl⟩

instance : Subsingleton S_.Idx := ⟨fun a b => funext fun d => d.elim0⟩

/-- Under the precondition the five argument arrays hold real numbers only. -/
theorem all_real (a0 a1 : FVec Ideal S1024x256 .f32) (a2 : FVec Ideal S1024 .f32) (a3 a4 : FVec Ideal S1024x256 .f32)
    (h : fn (F := Ideal) a0 a1 a2 a3 a4 = fun _ => 1#1) :
    AllReal a0 ∧ AllReal a1 ∧ AllReal a2 ∧ AllReal a3 ∧ AllReal a4 := by
  have h0 := congrFun h ix0
  dsimp only [fn, fn_part1, andi] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i)⟩

end Cert.Pre_finite_inputs.Real

end
-- ==== Proof.lean ====
/-
  A linear layer gated by a Gaussian-like radial factor: for inputs `x : [1024, 256]`, weights `w`, centres `c` and
  inverse covariances `ic` (each `[1024, 256]`, one row per neuron) and biases `b : [1024]`,

      g (r, z)   = exp (-∑ k, (|x (r,k) - c (z,k)| · (s (z,k)²)^(1/2))²),      s = min ic 1e8,
      res (r, z) = (∑ k, x (r,k) · w (z,k) + b z) · g (r, z).

  The reference computes `g` literally, through a [1024, 1024, 256] intermediate. The kernel never forms it: it expands
  the squared weighted distance into `∑ x²s² - 2·∑ x·(c·s²) + ∑ c·(c·s²)` — two matrix products and a per-neuron
  constant —, clamps it below at zero and negates it by subtracting from zero. On the extended reals the two agree once
  every input is a real number, which is what the precondition says: then `(s²)^(1/2) = |s|`, each summand is
  `(x - c)²·s²`, the expansion is distributivity, and the clamp does nothing to a sum of squares. The linear part is the
  same sum of products on both sides.

  The kernel's two result arrays as these functions of the arguments: Proof/KernelArray.lean (over the body's values in
  Proof/KernelBlock.lean); the reference's: Proof/ReferenceArray.lean; the scalar identity: Proof/GateAlgebra.lean; the
  precondition read back: Proof/FiniteInputs.lean.
-/
import proofs.«142972_j33406255628828_2_alg».proof.Defs
import proofs.«142972_j33406255628828_2_alg».proof.Proof.Gen.Kernel
import proofs.«142972_j33406255628828_2_alg».proof.Proof.Gen.Kernel.Skeleton
import proofs.«142972_j33406255628828_2_alg».proof.Proof.Gen.Kernel.Launch
import proofs.«142972_j33406255628828_2_alg».proof.Proof.Gen.Kernel.Points
import proofs.«142972_j33406255628828_2_alg».proof.Proof.Gen.Kernel.Frame
import proofs.«142972_j33406255628828_2_alg».proof.Proof.Gen.KernelIdeal
import proofs.«142972_j33406255628828_2_alg».proof.Proof.Gen.KernelIdeal.Skeleton
import proofs.«142972_j33406255628828_2_alg».proof.Proof.Gen.KernelIdeal.Launch
import proofs.«142972_j33406255628828_2_alg».proof.Proof.Gen.KernelIdeal.Points
import proofs.«142972_j33406255628828_2_alg».proof.Proof.Gen.KernelIdeal.Frame
import proofs.«142972_j33406255628828_2_alg».proof.Proof.Gen.ReferenceIdeal
import proofs.«142972_j33406255628828_2_alg».proof.Proof.Gen.Pre_finite_inputs
import proofs.«142972_j33406255628828_2_alg».proof.Proof.Gen.KernelIdeal.Value
import proofs.«142972_j33406255628828_2_alg».proof.Proof.Gen.ReferenceIdeal.Run
import proofs.«142972_j33406255628828_2_alg».proof.Proof.Gen.ReferenceIdeal.Read
import proofs.«142972_j33406255628828_2_alg».proof.Proof.KernelArray
import proofs.«142972_j33406255628828_2_alg».proof.Proof.ReferenceArray
import proofs.«142972_j33406255628828_2_alg».proof.Proof.FiniteInputs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference runs and leaves its arguments as they were: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the five arguments, all real numbers, both programs end with the layer's result and gate:
    the kernel by its two blocks of rows, the reference by its one pass over the [1024, 1024, 256] intermediate. -/
theorem algebraic : Cert.algebraic_KernelIdeal_ReferenceIdeal := by
  intro m ρ m' ρ' hpre hagree
  have hfin : ∀ c : Dev Cert.KernelIdeal.nD, Cert.Gate.AllReal (Cert.KernelIdeal.Whole.argX m c)
      ∧ Cert.Gate.AllReal (Cert.KernelIdeal.Whole.argC m c) ∧ Cert.Gate.AllReal (Cert.KernelIdeal.Whole.argIC m c) := fun c => by
    obtain ⟨f0, -, -, f3, f4⟩ := Cert.Pre_finite_inputs.Real.all_real _ _ _ _ _ (hpre c)
    exact ⟨f0, f3, f4⟩
  refine ⟨_, _, Cert.KernelIdeal.Whole.run m ρ hfin, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v24_eq, Cert.ReferenceIdeal.Spec.res_eq, (hagree c).1, (hagree c).2.1,
      (hagree c).2.2.1, (hagree c).2.2.2.1, (hagree c).2.2.2.2]
  · rw [Cert.ReferenceIdeal.Read.val_main_v23_eq, Cert.ReferenceIdeal.Spec.gate_eq, (hagree c).1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
